-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x3x1024 : Shape := ⟨4, ![16, 8, 3, 1024]⟩
abbrev S_ : Shape := ⟨0, ![]⟩

class Facts : Prop where
  bcast_S_S16x8x3x1024 : S_.BroadcastsInDim S16x8x3x1024 (![] : Fin 0 → Fin S16x8x3x1024.rank)
  reducesTo_S16x8x3x1024_S_d0_1_2_3 : S16x8x3x1024.ReducesTo [0, 1, 2, 3] S_
  h_S_ : 0 < S_.numel

variable [Facts]

def fn {F : FTy → Type} [FloatOps F] (main_arg0 : FVec F S16x8x3x1024 .f32) (main_arg1 : FVec F S16x8x3x1024 .f32) : IVec S_ 1 :=
  let main_v0 : FVec F S16x8x3x1024 .f32 := Host.absf main_arg0
  let main_cst : FVec F S_ .f32 := constant S_ .f32 0x7F800000#32
  let main_v1 : FVec F S16x8x3x1024 .f32 := broadcastInDim S16x8x3x1024 ![] bcast_S_S16x8x3x1024 main_cst
  let main_v2 : IVec S16x8x3x1024 1 := cmpf .olt main_v0 main_v1
  let main_c : IVec S_ 1 := constantI S_ 1 1#1
  let main_v3 : IVec S_ 1 := (fun x v => Host.reduce IntOp.andi x v reducesTo_S16x8x3x1024_S_d0_1_2_3 h_S_) main_v2 main_c
  let main_v4 : FVec F S16x8x3x1024 .f32 := Host.absf main_arg1
  let main_cst_0 : FVec F S_ .f32 := constant S_ .f32 0x7F800000#32
  let main_v5 : FVec F S16x8x3x1024 .f32 := broadcastInDim S16x8x3x1024 ![] bcast_S_S16x8x3x1024 main_cst_0
  let main_v6 : IVec S16x8x3x1024 1 := cmpf .olt main_v4 main_v5
  let main_c_1 : IVec S_ 1 := constantI S_ 1 1#1
  let main_v7 : IVec S_ 1 := (fun x v => Host.reduce IntOp.andi x v reducesTo_S16x8x3x1024_S_d0_1_2_3 h_S_) main_v6 main_c_1
  let main_v8 : IVec S_ 1 := andi main_v3 main_v7
  main_v8
-- ==== Kernel.lean ====
abbrev S16x8x3x1024 : Shape := ⟨4, ![16, 8, 3, 1024]⟩
abbrev S128x3x1024 : Shape := ⟨3, ![128, 3, 1024]⟩
abbrev S1x1 : Shape := ⟨2, ![1, 1]⟩
abbrev S1x3x1024 : Shape := ⟨3, ![1, 3, 1024]⟩
abbrev S3x1024 : Shape := ⟨2, ![3, 1024]⟩
abbrev S1024 : Shape := ⟨1, ![1024]⟩
abbrev S1024x3 : Shape := ⟨2, ![1024, 3]⟩
abbrev S1024x1024 : Shape := ⟨2, ![1024, 1024]⟩
abbrev S1024x1 : Shape := ⟨2, ![1024, 1]⟩
abbrev S1x1024 : Shape := ⟨2, ![1, 1024]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S16x8x3x1024, .f32⟩
  | .hbm, ⟨1, _⟩ => ⟨S16x8x3x1024, .f32⟩
  | .hbm, ⟨2, _⟩ => ⟨S128x3x1024, .f32⟩
  | .hbm, ⟨3, _⟩ => ⟨S128x3x1024, .f32⟩
  | .hbm, ⟨4, _⟩ => ⟨S1x1, .f32⟩
  | .hbm, ⟨5, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1, .f32⟩
  | .local _ .vmem, ⟨5, _⟩ => ⟨S1x1, .f32⟩
  | _, _ => ⟨S16x8x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v44 : BitVec 1 := Scalar.cmpi .eq arg0 c127_i32
  let v45 : BitVec 32 := Scalar.extui v44
  let c0_i32_20 : BitVec 32 := 0#32
  let v46 : BitVec 1 := Scalar.cmpi .ne v45 c0_i32_20
  v46

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16x8x3x1024_S128x3x1024 : S16x8x3x1024.ShapeCasts S128x3x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  bitsLt_bf16_f32 : FTy.bits .bf16 < FTy.bits .f32
  transposes_S3x1024_p1_0_S1024x3 : S3x1024.Transposes [1, 0] S1024x3
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1_S1 : S1024x1.Reduces [0] S1
  shapeCasts_S1_S1x1 : S1.ShapeCasts S1x1
  reduces_S1024x1024_S1024_2 : S1024x1024.Reduces [0] S1024
  reduces_S1x1024_S1 : S1x1024.Reduces [1] S1
  shapeCasts_S1x1_S_ : S1x1.ShapeCasts S_
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S128x3x1024.size a
  hwx0_0 : ∀ i : grid0.Coords, EltTy.bits .f32 = 32 ∨ (Rect.block (s := S128x3x1024) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S128x3x1024.size a
  hwx0_1 : ∀ i : grid0.Coords, EltTy.bits .f32 = 32 ∨ (Rect.block (s := S128x3x1024) S1x3x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x8x3x1024 : Shape := ⟨4, ![16, 8, 3, 1024]⟩
abbrev S_ : Shape := ⟨0, ![]⟩
abbrev S16x8x1024 : Shape := ⟨3, ![16, 8, 1024]⟩
abbrev S16x8x1024x1024 : Shape := ⟨4, ![16, 8, 1024, 1024]⟩
abbrev S16x8x1024x1 : Shape := ⟨4, ![16, 8, 1024, 1]⟩
abbrev S16x8x1x1024 : Shape := ⟨4, ![16, 8, 1, 1024]⟩
abbrev S8 : Shape := ⟨1, ![8]⟩

abbrev nBuf : Space → Nat
  | .hbm => 41
  | .vmem => 0
  | .smem => 0
  | _ => 0

abbrev bufTy : (tb : Table) → Fin (tcTables nBuf tb) → BufTy
  | .hbm, ⟨0, _⟩ => ⟨S16x8x3x1024, .f32⟩
  | .hbm, ⟨1, _⟩ => ⟨S16x8x3x1024, .f32⟩
  | .hbm, ⟨2, _⟩ => ⟨S16x8x3x1024, .f32⟩
  | .hbm, ⟨3, _⟩ => ⟨S_, .f32⟩
  | .hbm, ⟨4, _⟩ => ⟨S16x8x1024, .f32⟩
  | .hbm, ⟨5, _⟩ => ⟨S16x8x3x1024, .f32⟩
  | .hbm, ⟨6, _⟩ => ⟨S_, .f32⟩
  | .hbm, ⟨7, _⟩ => ⟨S16x8x1024, .f32⟩
  | .hbm, ⟨8, _⟩ => ⟨S16x8x1024x1024, .f32⟩
  | .hbm, ⟨9, _⟩ => ⟨S16x8x1024x1, .f32⟩
  | .hbm, ⟨10, _⟩ => ⟨S16x8x1x1024, .f32⟩
  | .hbm, ⟨11, _⟩ => ⟨S16x8x1024x1024, .f32⟩
  | .hbm, ⟨12, _⟩ => ⟨S16x8x1024x1024, .f32⟩
  | .hbm, ⟨13, _⟩ => ⟨S16x8x1024x1024, .f32⟩
  | .hbm, ⟨14, _⟩ => ⟨S_, .f32⟩
  | .hbm, ⟨15, _⟩ => ⟨S16x8x1024x1024, .f32⟩
  | .hbm, ⟨16, _⟩ => ⟨S16x8x1024x1024, .f32⟩
  | .hbm, ⟨17, _⟩ => ⟨S16x8x1024x1024, .f32⟩
  | .hbm, ⟨18, _⟩ => ⟨S_, .f32⟩
  | .hbm, ⟨19, _⟩ => ⟨S16x8x1024x1024, .f32⟩
  | .hbm, ⟨20, _⟩ => ⟨S16x8x1024x1024, .f32⟩
  | .hbm, ⟨21, _⟩ => ⟨S16x8x1024x1024, .f32⟩
  | .hbm, ⟨22, _⟩ => ⟨S_, .f32⟩
  | .hbm, ⟨23, _⟩ => ⟨S16x8x1024, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S16x8x1024, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S16x8x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  reducesTo_S16x8x3x1024_S16x8x1024_d2 : S16x8x3x1024.ReducesTo [2] S16x8x1024
  h_S_ : 0 < S_.numel
  bcast_S16x8x1024_S16x8x1024x1_0_1_2 : S16x8x1024.BroadcastsInDim S16x8x1024x1 (![0, 1, 2] : Fin 3 → Fin S16x8x1024x1.rank)
  bcast_S16x8x1024_S16x8x1x1024_0_1_3 : S16x8x1024.BroadcastsInDim S16x8x1x1024 (![0, 1, 3] : Fin 3 → Fin S16x8x1x1024.rank)
  bcast_S16x8x1024x1_S16x8x1024x1024_0_1_2_3 : S16x8x1024x1.BroadcastsInDim S16x8x1024x1024 (![0, 1, 2, 3] : Fin 4 → Fin S16x8x1024x1024.rank)
  bcast_S16x8x1x1024_S16x8x1024x1024_0_1_2_3 : S16x8x1x1024.BroadcastsInDim S16x8x1024x1024 (![0, 1, 2, 3] : Fin 4 → Fin S16x8x1024x1024.rank)
  bcast_S_S16x8x1024x1024 : S_.BroadcastsInDim S16x8x1024x1024 (![] : Fin 0 → Fin S16x8x1024x1024.rank)
  reducesTo_S16x8x1024x1024_S16x8x1024_d3 : S16x8x1024x1024.ReducesTo [3] S16x8x1024
  reducesTo_S16x8x1024_S8_d0_2 : S16x8x1024.ReducesTo [0, 2] S8
  bcast_S_S8 : S_.BroadcastsInDim S8 (![] : Fin 0 → Fin S8.rank)
  reducesTo_S16x8x1024x1024_S16x8x1024_d2 : S16x8x1024x1024.ReducesTo [2] S16x8x1024
  reducesTo_S8_S_d0 : S8.ReducesTo [0] S_
  dot_S16x8x3x1024_S16x8x3x1024_S16x8x1024x1024_2_2_3_3_01_01_wf : DotDims.WF S16x8x3x1024 S16x8x3x1024 S16x8x1024x1024 [2] [2] [3] [3] [0, 1] [0, 1]

variable [Facts₀]

def dot_S16x8x3x1024_S16x8x3x1024_S16x8x1024x1024_2_2_3_3_01_01 : DotDims S16x8x3x1024 S16x8x3x1024 S16x8x1024x1024 where
  lhsContracting := [2]
  rhsContracting := [2]
  lhsNonContracting := [3]
  rhsNonContracting := [3]
  lhsBatch := [0, 1]
  rhsBatch := [0, 1]
  wf := dot_S16x8x3x1024_S16x8x3x1024_S16x8x1024x1024_2_2_3_3_01_01_wf

class Facts : Prop extends Facts₀ where

variable [Facts]
-- ==== Proof.KernelCases.lean ====
/-
  What one grid step leaves behind, in each of its three control cases, as values.

  The body computes the pair's contribution `k0_pay3 x0 x1` from the two input blocks and adds it to the
  one-element accumulator it carries from step to step: `k0_pay1 contribution accumulator = accumulator + contribution`.
  * first step: the accumulator is first set to zero (`k0_pay2`), so it ends at `0 + contribution`;
  * a middle step: it ends at `previous + contribution`;
  * last step: the same, and the output block receives a copy of the accumulator just written.
-/
import proofs.«124604_j3204045603272_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.ChamferCases

open Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-- First step: the accumulator ends at zero plus the contribution. -/
theorem sout_A (c : Dev nD) (i : grid0.Coords) (a1 : Memref sig .tc .vmem S1x3x1024 .f32) (h1 : a1.IsWhole)
    (a2 : Memref sig .tc .vmem S1x3x1024 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S1x3x1024 .f32) :
    sout0_A_0 c i a1 h1 a2 h2 a3 h3 a4 h4 hc0 hc1 x0 x1 = k0_pay1 (k0_pay3 x0 x1) (k0_pay2 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S1x3x1024) hz3]

/-- A middle step: the accumulator ends at its previous contents plus the contribution. -/
theorem sout_B (c : Dev nD) (i : grid0.Coords) (a1 : Memref sig .tc .vmem S1x3x1024 .f32) (h1 : a1.IsWhole)
    (a2 : Memref sig .tc .vmem S1x3x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S1x3x1024 .f32) (xs0 : Vec F S1x1 .f32) :
    sout0_B_0 c i a1 h1 a2 h2 a3 h3 a4 h4 hc0 hc1 x0 x1 xs0 = k0_pay1 (k0_pay3 x0 x1) xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero (S := S1x1) hz]
  simp only [View.readAt_eq_ld, h1.read_unread, h2.read_unread, h4.read_unread, View.ld_unit_zero (S := S1x3x1024) hz3,
    View.ld_unit_zero (S := S1x1) hz]

/-- Last step: the accumulator ends at its previous contents plus the contribution, -/
theorem sout_C (c : Dev nD) (i : grid0.Coords) (a1 : Memref sig .tc .vmem S1x3x1024 .f32) (h1 : a1.IsWhole)
    (a2 : Memref sig .tc .vmem S1x3x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1x3x1024 .f32) (xs0 : Vec F S1x1 .f32) :
    sout0_C_0 c i a1 h1 a2 h2 a3 h3 a4 h4 hc0 hc1 x0 x1 xs0 = k0_pay1 (k0_pay3 x0 x1) xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero (S := S1x1) hz]
  simp only [View.readAt_eq_ld, h1.read_unread, h2.read_unread, h4.read_unread, View.ld_unit_zero (S := S1x3x1024) hz3,
    View.ld_unit_zero (S := S1x1) hz]

/-- and the output block holds the same value. -/
theorem out_C (c : Dev nD) (i : grid0.Coords) (a1 : Memref sig .tc .vmem S1x3x1024 .f32) (h1 : a1.IsWhole)
    (a2 : Memref sig .tc .vmem S1x3x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S1x3x1024 .f32) (xs0 : Vec F S1x1 .f32) :
    out0_C_2 c i a1 h1 a2 h2 a3 h3 a4 h4 hc0 hc1 x0 x1 xs0 = k0_pay1 (k0_pay3 x0 x1) xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero (S := S1x1) hz, View.readCov_unit_zero (S := S1x1) _ hz]
  simp only [View.readAt_eq_ld, h1.read_unread, h2.read_unread, h4.read_unread, View.ld_unit_zero (S := S1x3x1024) hz3,
    View.ld_unit_zero (S := S1x1) hz]

end Cert.KernelIdeal.ChamferCases

end
-- ==== Proof.KernelChain.lean ====
/-
  The accumulation over the 128 grid steps, and the kernel's run read as a value.

  The one-element accumulator after step `n` is `acc n`: `0 + contribution 0` after the first step, then
  `acc (n - 1) + contribution n` — by induction on the step, from the three case values. The output block is written
  once, at the last step, with a copy of `acc 127`; it is the whole `[1, 1]` result array, which the host then reshapes
  to a scalar.
-/
import proofs.«124604_j3204045603272_2_alg».proof.Proof.KernelCases
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ChamferChain

open Cert.KernelIdeal Cert.KernelIdeal.Gen Cert.KernelIdeal.ChamferCases

variable {F : FTy → Type} [FloatOps F]
variable (m : (ℓ : Loc nD τ sig) → Buf (Elt F) ℓ) (ρ : Dev nD → PrngReg)

/-- The accumulator after step `n`. -/
def acc (c : Dev nD) : (n : ℕ) → n < cfg0.N → Vec F S1x1 .f32
  | 0, h => k0_pay1 (k0_pay3 (iblk m c 0 ⟨0, h⟩) (iblk m c 1 ⟨0, h⟩)) (k0_pay2 (F := F))
  | n + 1, h => k0_pay1 (k0_pay3 (iblk m c 0 ⟨n + 1, h⟩) (iblk m c 1 ⟨n + 1, h⟩)) (acc c n (Nat.lt_of_succ_lt h))

/-- What the scratch holds after step `n` is the accumulator: by induction on the step. -/
theorem outsAt_snd (c : Dev nD) : ∀ (n : ℕ) (h : n < cfg0.N), (outsAt0 m c n h).2 = acc m c n h
  | 0, h => by
    rw [outsAt0_A m c ⟨0, h⟩ rfl (by show ¬(0 % 128 = 127); decide)]
    dsimp only
    rw [sout_A]
    rfl
  | n + 1, h => by
    have hN : cfg0.N = 128 := N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      rw [sout_C]
      show k0_pay1 _ (outsAt0 m c n _).2 = k0_pay1 _ (acc m c n _)
      rw [outsAt_snd c n]
    · rw [outsAt0_B m c ⟨n + 1, h⟩ h0 h1]
      dsimp only
      rw [sout_B]
      show k0_pay1 _ (outsAt0 m c n _).2 = k0_pay1 _ (acc m c n _)
      rw [outsAt_snd c n]

theorem lt127 : 127 < cfg0.N := by rw [show cfg0.N = 128 from N_0]; decide

/-- The last step. -/
abbrev t127 : Fin cfg0.N := ⟨127, lt127⟩

/-- What the output block holds after the last step is the accumulator too. -/
theorem outsAt_fst (c : Dev nD) (t : Fin cfg0.N) (h1 : t.val % 128 = 127) :
    (outsAt0 m c t.val t.isLt).1 = acc m c t.val t.isLt := by
  have hN : cfg0.N = 128 := N_0
  have h0 : ¬t.val % 128 = 0 := by omega
  rw [outsAt0_C m c t h0 h1]
  dsimp only
  rw [out_C]
  obtain ⟨n, hn⟩ := t
  cases n with
  | zero => exact absurd h1 (by show ¬(0 % 128 = 127); decide)
  | succ n =>
    show k0_pay1 _ (outsAt0 m c n _).2 = k0_pay1 _ (acc m c n _)
    rw [outsAt_snd m c n]

/-- The result array's contents: the accumulator after the last step. -/
abbrev result (c : Dev nD) : Buf (Elt F) ((c : Thread nD τ).loc main_v2) := acc m c 127 lt127

/-- The one write-back, at the last step, writes it: the `[1, 1]` block at zero offsets is the whole array. -/
theorem flushed_eq (c : Dev nD) (t : Fin cfg0.N) (hf : (cfg0.win 2).flush t = true) :
    (dats m 0 c).flushed 2 t = ((cfg0.win 2).blk t).view.read (Elt F) (result m c) := by
  have hN : cfg0.N = 128 := N_0
  have h127 : t.val = 127 := by have := (flush0_2 t).mp hf; have := t.isLt; omega
  have e1 : (dats m 0 c).after 2 t = result m c := by
    rw [after0_2, outsAt_fst m c t (by omega)]
    obtain rfl : t = t127 := Fin.ext h127
    rfl
  show (cfg0.win 2).cut (grid0.coords t) ((dats m 0 c).after 2 t) = _
  rw [e1]
  obtain rfl : t = t127 := Fin.ext h127
  have hz' : (fun a => win0_2.index t127 a * main_v2.ty.shape.size a) = fun _ => 0 :=
    funext fun a => by fin_cases a <;> decide +kernel
  exact (Memref.read_access_unit_zero (Elt F) main_v2 hz' (fun a => by rw [congrFun hz' a]; simp) (result m c)).symm

/-- So the result array ends holding the accumulator after the last step. -/
theorem final_o (c : Dev nD) : (dats m 0 c).arrAt 2 cfg0.N = result m c :=
  (dats m 0 c).arrAt_eq_of_cover 2 (result m c) (flushed_eq m c) fun i =>
    ⟨t127, (flush0_2 t127).mpr rfl, by
      show i ∈ ((View.whole main_v2).slice (win0_2.rect t127)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t127 0 * win0_2.size 0 ≤ (i 0 : Nat) ∧ (i 0 : Nat) < win0_2.index t127 0 * win0_2.size 0 + win0_2.xsize (grid0.coords t127) 0
        rw [show win0_2.index t127 0 * win0_2.size 0 = 0 from by decide +kernel, show win0_2.xsize (grid0.coords t127) 0 = 1 from by decide +kernel]; omega
      | ⟨1, _⟩ =>
        show win0_2.index t127 1 * win0_2.size 1 ≤ (i 1 : Nat) ∧ (i 1 : Nat) < win0_2.index t127 1 * win0_2.size 1 + win0_2.xsize (grid0.coords t127) 1
        rw [show win0_2.index t127 1 * win0_2.size 1 = 0 from by decide +kernel, show win0_2.xsize (grid0.coords t127) 1 = 1 from by decide +kernel]; omega⟩

/-- The host's last line reshapes the `[1, 1]` result to a scalar. -/
theorem tail_v3 (c : Dev nD) :
    Pipeline.afterTail₀ cfgs (dats m) 0 (V0 m) [hostOps1] c main_v3 = shapeCast S_ (result m c) shapeCasts_S1x1_S_ := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = result m c := (Pipeline.withArrays_arr spec0 launch0.win.arr_inj c _ _ 2).trans (final_o m c)
  rw [e]
  rfl

end Cert.KernelIdeal.ChamferChain

end
-- ==== Proof.ChamferSpec.lean ====
/-
  The mathematics of the certificate, with no program in sight.

  For one (batch, part) pair the two point clouds are `u, v : Fin 3 → Fin 1024 → EReal` (coordinate, point).
  The distance matrix is `dist u v p q = sqrt (max ((|u_p|² + |v_q|²) - 2 · ⟨u_p, v_q⟩) 0)`; the pair's
  contribution to the loss is `(∑_p min_q dist) · w + (∑_q min_p dist) · w` with `w = 2⁻¹⁷`.
  One side adds the 128 contributions one after the other, starting from zero; the other sums, for each of
  the 8 parts, the row minima and the column minima over the 16 batches, divides each by `16384`, adds, sums over
  the parts and divides by `8`. Over the extended reals the two agree because a product with a finite
  non-negative constant distributes over every sum (infinite terms included), `x / n = x · (1/n)` for a
  non-zero real `n`, and `(1/16384) · (1/8) = 2⁻¹⁷`.
-/
import Idealize.ShloMosaic.PureOps.Ideal
import Idealize.ShloMosaic.PureOps.Ideal.Laws
import Idealize.ShloMosaic.Lib.ValueIdx

noncomputable section

namespace Cert.Chamfer

open Idealize.ShloMosaic

/-! ## The constants the programs spell -/

/-- `2.0`. Never evaluated: both sides multiply the cross term by the same word. -/
abbrev two : EReal := Ideal.ofBits .f32 0x40000000#32
/-- `+∞`, the value every minimum starts from. Never evaluated either. -/
abbrev inf : EReal := Ideal.ofBits .f32 0x7F800000#32
/-- The weight `2⁻¹⁷ = 1 / (16 · 1024 · 8)`. -/
abbrev wgt : EReal := Ideal.ofBits .f32 0x37000000#32

theorem ofBits_16384 : Ideal.ofBits .f32 0x46800000#32 = ((16384 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem wgt_eq : wgt = (((1 / 16384 : ℝ) * (1 / 8 : ℝ) : ℝ) : EReal) := by
  simp [wgt, Ideal.ofBits, Ideal.ieee, -EReal.coe_mul]; norm_num

theorem wgt_nonneg : 0 ≤ wgt := by
  rw [wgt_eq]; exact_mod_cast (by norm_num : (0 : ℝ) ≤ (1 / 16384 : ℝ) * (1 / 8 : ℝ))

theorem wgt_ne_top : wgt ≠ ⊤ := by
  rw [wgt_eq]; exact EReal.coe_ne_top _

/-! ## One pair's contribution -/

section Pair
variable (u v : Fin 3 → Fin 1024 → EReal)

/-- The distance between point `p` of `u` and point `q` of `v`, by the polarization identity, clamped at zero. -/
def dist (p q : Fin 1024) : EReal :=
  Ideal.sqrt (max ((∑ c : Fin 3, u c p * u c p + ∑ c : Fin 3, v c q * v c q) - two * ∑ c : Fin 3, u c p * v c q) 0)

/-- The distance from point `p` of `u` to the nearest point of `v`. -/
def rowMin (p : Fin 1024) : EReal := (Finset.univ : Finset (Fin 1024)).fold min inf (fun q => dist u v p q)
/-- The distance from point `q` of `v` to the nearest point of `u`. -/
def colMin (q : Fin 1024) : EReal := (Finset.univ : Finset (Fin 1024)).fold min inf (fun p => dist u v p q)

/-- The pair's weighted forward and backward sums. -/
def contrib : EReal := (∑ p : Fin 1024, rowMin u v p) * wgt + (∑ q : Fin 1024, colMin u v q) * wgt

end Pair

/-! ## The whole loss -/

/-- Pair `(b, k)`'s cloud in a `[16, 8, 3, 1024]` array: coordinate `c` of point `p`. -/
abbrev pairCloud (x : (⟨4, ![16, 8, 3, 1024]⟩ : Shape).Idx → EReal) (b : Fin 16) (k : Fin 8) : Fin 3 → Fin 1024 → EReal :=
  fun c p => x (ValueIdx.ix4 b k c p)

/-- The loss: the sum over the 128 pairs of their contributions. -/
def total (x0 x1 : (⟨4, ![16, 8, 3, 1024]⟩ : Shape).Idx → EReal) : EReal :=
  ∑ b : Fin 16, ∑ k : Fin 8, contrib (pairCloud x0 b k) (pairCloud x1 b k)

/-! ## The law joining the two arrangements -/

/-- A product with a finite non-negative constant distributes over a finite sum of extended reals, whatever the terms. -/
theorem sum_mul_const {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The running sum `((0 + g 0) + g 1) + … + g n`. -/
def chain (g : ℕ → EReal) : ℕ → EReal
  | 0 => 0 + g 0
  | n + 1 => chain g n + g (n + 1)

theorem chain_zero (g : ℕ → EReal) : chain g 0 = 0 + g 0 := rfl
theorem chain_succ (g : ℕ → EReal) (n : ℕ) : chain g (n + 1) = chain g n + g (n + 1) := rfl

theorem chain_eq_sum (g : ℕ → EReal) (n : ℕ) : chain g n = ∑ i ∈ Finset.range (n + 1), g i := by
  induction n with
  | zero => simp [chain]
  | succ n ih => rw [chain, ih, Finset.sum_range_succ _ (n + 1)]

-- From here on the running sum is only ever opened through `chain_zero`, `chain_succ` and `chain_eq_sum`.
attribute [irreducible] chain

/-- 128 terms in order are 16 groups of 8. -/
theorem sum_range_128 (g : ℕ → EReal) :
    ∑ i ∈ Finset.range 128, g i = ∑ b : Fin 16, ∑ k : Fin 8, g (8 * b.val + k.val) := by
  rw [Finset.sum_range]
  rw [← Fintype.sum_prod_type']
  rw [← Equiv.sum_comp (finProdFinEquiv (m := 16) (n := 8)) (fun t : Fin (16 * 8) => g t.val)]
  refine Finset.sum_congr rfl fun x _ => ?_
  show g (x.2.val + 8 * x.1.val) = _
  rw [Nat.add_comm]

/-- The mean of the per-part means is the weighted total: `R b k`, `C b k` are pair `(b, k)`'s forward and backward sums. -/
theorem mean_eq (R C : Fin 16 → Fin 8 → EReal) :
    Ideal.div (0 + ∑ k : Fin 8, (Ideal.div (0 + ∑ b : Fin 16, R b k) (Ideal.ofBits .f32 0x46800000#32)
        + Ideal.div (0 + ∑ b : Fin 16, C b k) (Ideal.ofBits .f32 0x46800000#32))) (Ideal.ofBits .f32 0x41000000#32)
      = ∑ b : Fin 16, ∑ k : Fin 8, (R b k * wgt + C b k * wgt) := by
  have h1 : (0 : EReal) ≤ ((1 / 16384 : ℝ) : EReal) := by exact_mod_cast (by norm_num : (0 : ℝ) ≤ 1 / 16384)
  have h2 : (0 : EReal) ≤ ((1 / 8 : ℝ) : EReal) := by exact_mod_cast (by norm_num : (0 : ℝ) ≤ 1 / 8)
  have t1 : ((1 / 16384 : ℝ) : EReal) ≠ ⊤ := EReal.coe_ne_top _
  have t2 : ((1 / 8 : ℝ) : EReal) ≠ ⊤ := EReal.coe_ne_top _
  have hw : ∀ x : EReal, x * ((1 / 16384 : ℝ) : EReal) * ((1 / 8 : ℝ) : EReal) = x * wgt := fun x => by
    rw [mul_assoc, ← EReal.coe_mul, ← wgt_eq]
  rw [ofBits_16384, ofBits_8, Ideal.div_coe (by norm_num : (8 : ℝ) ≠ 0), zero_add, sum_mul_const _ _ h2 t2,
    Finset.sum_comm]
  refine Finset.sum_congr rfl fun k _ => ?_
  rw [Ideal.div_coe (by norm_num : (16384 : ℝ) ≠ 0), Ideal.div_coe (by norm_num : (16384 : ℝ) ≠ 0), zero_add, zero_add,
    EReal.right_distrib_of_nonneg_of_ne_top h2 t2, sum_mul_const _ _ h1 t1, sum_mul_const _ _ h1 t1,
    sum_mul_const _ _ h2 t2, sum_mul_const _ _ h2 t2, ← Finset.sum_add_distrib]
  exact Finset.sum_congr rfl fun b _ => by rw [hw, hw]

end Cert.Chamfer

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.KernelPayload.lean ====
/-
  The body's arithmetic, read at the ideal values: the value `k0_pay3 x0 x1` one grid step adds to the accumulator
  is the pair's contribution `Chamfer.contrib` of the two blocks' point clouds.

  Reading order, outermost first: the weighted sum of the two one-element sums; each one-element sum as a sum over 1024
  minima; each minimum as a fold over a row or a column of the distance matrix; an entry of the distance matrix as
  `sqrt (max ((|u_p|² + |v_q|²) - 2 · ⟨u_p, v_q⟩) 0)`, the squared norms being sums over the three coordinates and the
  cross term the matrix product of the transposed first cloud with the second (rounding to bf16 is the identity here).
-/
import proofs.«124604_j3204045603272_2_alg».proof.Proof.Gen.KernelIdeal.Skeleton
import proofs.«124604_j3204045603272_2_alg».proof.Proof.ChamferSpec
import proofs.«124604_j3204045603272_2_alg».proof.Proof.LibKeepdims

noncomputable section

open Idealize.ShloMosaic Idealize.ShloMosaic.ValueIdx

namespace Cert.KernelIdeal.ChamferPayload

open Cert.KernelIdeal Cert.KernelIdeal.Gen Cert.LibKeepdims Cert.Chamfer

/-- A `[3, 1024]` matrix as a cloud: coordinate `c` of point `p`. -/
abbrev pts (a : FVec Ideal S3x1024 .f32) : Fin 3 → Fin 1024 → EReal := fun c p => a (ix2 c p)

/-- The cross term: entry `(p, q)` of (first cloud transposed) × (second cloud) is the inner product of point `p` of the
    first with point `q` of the second. -/
theorem cross_apply (a b : FVec Ideal S3x1024 .f32) (hb : FTy.bits .bf16 < FTy.bits .f32)
    (hT : S3x1024.Transposes [1, 0] S1024x3) (p q : Fin 1024) :
    matmul dot_S1024x3_S3x1024_S1024x1024_1_0_0_1_n_n none (transpose S1024x3 [1, 0] (truncf .bf16 a hb) hT) (truncf .bf16 b hb)
        (constant S1024x1024 .f32 0x00000000#32) (ix2 p q)
      = ∑ c : Fin 3, a (ix2 c p) * b (ix2 c q) := by
  simp only [matmul]
  rw [Ideal.matmul_constant_zero_apply, ← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 p q) ((contrEquiv1 dot_S1024x3_S3x1024_S1024x1024_1_0_0_1_n_n 3 rfl rfl).symm k) = ix2 p k := funext fun d => Fin.ext (by
    match d with
    | ⟨0, _⟩ =>
      show (dot_S1024x3_S3x1024_S1024x1024_1_0_0_1_n_n.lhsIdx (ix2 p q) _ 0).val = p.val
      unfold DotDims.lhsIdx
      rw [dif_neg (show ¬(0 : Fin S1024x3.rank) ∈ dot_S1024x3_S3x1024_S1024x1024_1_0_0_1_n_n.lhsBatch by decide),
        dif_pos (show (0 : Fin S1024x3.rank) ∈ dot_S1024x3_S3x1024_S1024x1024_1_0_0_1_n_n.lhsNonContracting by decide)]
      rfl
    | ⟨1, _⟩ => exact (dot_S1024x3_S3x1024_S1024x1024_1_0_0_1_n_n.lhsIdx_val_of_single rfl _ _).trans hk)
  have er : dot_S1024x3_S3x1024_S1024x1024_1_0_0_1_n_n.rhsIdx (ix2 p q) ((contrEquiv1 dot_S1024x3_S3x1024_S1024x1024_1_0_0_1_n_n 3 rfl rfl).symm k) = ix2 k q := funext fun d => Fin.ext (by
    match d with
    | ⟨0, _⟩ => exact (dot_S1024x3_S3x1024_S1024x1024_1_0_0_1_n_n.rhsIdx_val_of_single rfl _ _).trans hk
    | ⟨1, _⟩ =>
      show (dot_S1024x3_S3x1024_S1024x1024_1_0_0_1_n_n.rhsIdx (ix2 p q) _ 1).val = q.val
      unfold DotDims.rhsIdx
      rw [dif_neg (show ¬(1 : Fin S3x1024.rank) ∈ dot_S1024x3_S3x1024_S1024x1024_1_0_0_1_n_n.rhsBatch by decide),
        dif_pos (show (1 : Fin S3x1024.rank) ∈ dot_S1024x3_S3x1024_S1024x1024_1_0_0_1_n_n.rhsNonContracting by decide)]
      rfl)
  rw [el, er]
  exact congrArg₂ (· * ·) (transpose_ix2_apply (truncf .bf16 a hb) hT p k) rfl

section Dist
variable (a b : FVec Ideal S3x1024 .f32)
  (hR : S3x1024.Reduces [0] S1024) (hφ : FKind.Formats .f32)
  (ha : (0x00000000#32 : BitVec FTy.f32.bits) = FKind.add.neutral .f32 hφ)
  (hb : FTy.bits .bf16 < FTy.bits .f32) (hT : S3x1024.Transposes [1, 0] S1024x3)
  (hC1 : S1024.ShapeCasts S1024x1) (hC2 : S1024.ShapeCasts S1x1024)
  (hB1 : S1024x1.Broadcasts S1024x1024) (hB2 : S1x1024.Broadcasts S1024x1024)

/-- The distance matrix of the body, as the body spells it. -/
def distVec : FVec Ideal S1024x1024 .f32 :=
  sqrt (maximumf (subf
      (addf (broadcastTo S1024x1024 (shapeCast S1024x1 (multiReduction .add [0] S1024 (mulf a a) 0x00000000#32 hR hφ ha) hC1) hB1)
        (broadcastTo S1024x1024 (shapeCast S1x1024 (multiReduction .add [0] S1024 (mulf b b) 0x00000000#32 hR hφ ha) hC2) hB2))
      (mulf (broadcast S1024x1024 (Scalar.ofBits .f32 0x40000000#32))
        (matmul dot_S1024x3_S3x1024_S1024x1024_1_0_0_1_n_n none (transpose S1024x3 [1, 0] (truncf .bf16 a hb) hT) (truncf .bf16 b hb)
          (constant S1024x1024 .f32 0x00000000#32))))
    (broadcast S1024x1024 (Scalar.ofBits .f32 0x00000000#32)))

/-- Entry `(p, q)` of it is the distance between point `p` of the first cloud and point `q` of the second. -/
theorem distVec_apply (p q : Fin 1024) :
    distVec a b hR hφ ha hb hT hC1 hC2 hB1 hB2 (ix2 p q) = Chamfer.dist (pts a) (pts b) p q := by
  unfold distVec Chamfer.dist
  refine congrArg Ideal.sqrt (congrArg₂ max (congrArg₂ (· - ·) (congrArg₂ (· + ·) ?_ ?_) (congrArg₂ (· * ·) rfl ?_)) ?_)
  · exact (broadcastTo_a1_ab_apply _ hB1 p q).trans ((shapeCast_a_a1_apply _ hC1 p 0).trans
      (add_axis0_apply (mulf a a) _ hR hφ ha p))
  · exact (broadcastTo_1b_ab_apply _ hB2 p q).trans ((shapeCast_a_1a_apply _ hC2 0 q).trans
      (add_axis0_apply (mulf b b) _ hR hφ ha q))
  · exact cross_apply a b hb hT p q
  · exact Ideal.ofBits_zero_f32

end Dist

section Tail
variable (d : FVec Ideal S1024x1024 .f32) (hφ : FKind.Formats .f32)
  (ha : (0x00000000#32 : BitVec FTy.f32.bits) = FKind.add.neutral .f32 hφ)
  (hm : (0x7F800000#32 : BitVec FTy.f32.bits) = FKind.minimumf.neutral .f32 hφ)
  (hR1 : S1024x1024.Reduces [1] S1024) (hR0 : S1024x1024.Reduces [0] S1024)
  (hC1 : S1024.ShapeCasts S1024x1) (hC2 : S1024.ShapeCasts S1x1024)
  (hRa : S1024x1.Reduces [0] S1) (hRb : S1x1024.Reduces [1] S1) (hC11 : S1.ShapeCasts S1x1)

/-- What the body makes of the distance matrix, as the body spells it. -/
def tailVec : FVec Ideal S1x1 .f32 :=
  addf
    (mulf (shapeCast S1x1 (multiReduction .add [0] S1
        (shapeCast S1024x1 (multiReduction .minimumf [1] S1024 d 0x7F800000#32 hR1 hφ hm) hC1) 0x00000000#32 hRa hφ ha) hC11)
      (broadcast S1x1 (Scalar.ofBits .f32 0x37000000#32)))
    (mulf (shapeCast S1x1 (multiReduction .add [1] S1
        (shapeCast S1x1024 (multiReduction .minimumf [0] S1024 d 0x7F800000#32 hR0 hφ hm) hC2) 0x00000000#32 hRb hφ ha) hC11)
      (broadcast S1x1 (Scalar.ofBits .f32 0x37000000#32)))

/-- Its one element: the sum of the row minima and the sum of the column minima, each weighted. -/
theorem tailVec_apply (j : S1x1.Idx) :
    tailVec d hφ ha hm hR1 hR0 hC1 hC2 hRa hRb hC11 j
      = (∑ p : Fin 1024, (Finset.univ : Finset (Fin 1024)).fold min inf (fun q => d (ix2 p q))) * wgt
        + (∑ q : Fin 1024, (Finset.univ : Finset (Fin 1024)).fold min inf (fun p => d (ix2 p q))) * wgt := by
  obtain ⟨u0, u1, rfl⟩ : ∃ (u0 u1 : Fin 1), j = ix2 u0 u1 := ⟨j 0, j 1, eq_ix2 j⟩
  unfold tailVec
  refine congrArg₂ (· + ·) (congrArg₂ (· * ·) ?_ rfl) (congrArg₂ (· * ·) ?_ rfl)
  · exact (shapeCast_a_1a_apply _ hC11 u0 u1).trans ((add_axis0_apply _ _ hRa hφ ha u1).trans
      (Finset.sum_congr rfl fun p _ => (shapeCast_a_a1_apply _ hC1 p u1).trans (min_axis1_apply d _ hR1 hφ hm p)))
  · exact (shapeCast_a_1a_apply _ hC11 u0 u1).trans ((add_axis1_apply _ _ hRb hφ ha u1).trans
      (Finset.sum_congr rfl fun q _ => (shapeCast_a_1a_apply _ hC2 u1 q).trans (min_axis0_apply d _ hR0 hφ hm q)))

end Tail

/-- A loaded `[1, 3, 1024]` block as a cloud. -/
abbrev cloud (x : Vec Ideal S1x3x1024 .f32) : Fin 3 → Fin 1024 → EReal := fun c p => x (ix3 (0 : Fin 1) c p)

theorem pts_cast (x : Vec Ideal S1x3x1024 .f32) (h : S1x3x1024.ShapeCasts S3x1024) :
    pts (shapeCast S3x1024 x h) = cloud x :=
  funext fun c => funext fun p => shapeCast_1ab_ab_apply x h c p

/-- The value one grid step adds to the accumulator is the contribution of the pair whose clouds are the two blocks. -/
theorem pay3_apply (x0 x1 : Vec Ideal S1x3x1024 .f32) (j : S1x1.Idx) :
    k0_pay3 (F := Ideal) x0 x1 j = contrib (cloud x0) (cloud x1) := by
  have e : k0_pay3 (F := Ideal) x0 x1
      = tailVec (distVec (shapeCast S3x1024 x0 shapeCasts_S1x3x1024_S3x1024) (shapeCast S3x1024 x1 shapeCasts_S1x3x1024_S3x1024)
          reduces_S3x1024_S1024 (.inl rfl) rfl bitsLt_bf16_f32 transposes_S3x1024_p1_0_S1024x3 shapeCasts_S1024_S1024x1
          shapeCasts_S1024_S1x1024 broadcasts_S1024x1_S1024x1024 broadcasts_S1x1024_S1024x1024)
        (.inl rfl) rfl rfl reduces_S1024x1024_S1024 reduces_S1024x1024_S1024_2 shapeCasts_S1024_S1024x1 shapeCasts_S1024_S1x1024
        reduces_S1024x1_S1 reduces_S1x1024_S1 shapeCasts_S1_S1x1 := rfl
  refine (congrFun e j).trans ((tailVec_apply _ _ _ _ _ _ _ _ _ _ _ j).trans ?_)
  unfold contrib rowMin colMin
  refine congrArg₂ (· + ·)
    (congrArg (· * wgt) (Finset.sum_congr rfl fun p _ => Finset.fold_congr fun q _ => ?_))
    (congrArg (· * wgt) (Finset.sum_congr rfl fun q _ => Finset.fold_congr fun p _ => ?_))
  · exact (distVec_apply _ _ _ _ _ _ _ _ _ _ _ p q).trans (by rw [pts_cast, pts_cast])
  · exact (distVec_apply _ _ _ _ _ _ _ _ _ _ _ p q).trans (by rw [pts_cast, pts_cast])

end Cert.KernelIdeal.ChamferPayload

end
-- ==== Proof.KernelBlocks.lean ====
/-
  Where a grid step's input blocks come from. Step `t` (0 ≤ t < 128) reads row `t` of each `[128, 3, 1024]` array the
  host made by merging the first two axes of an argument `[16, 8, 3, 1024]`: row `t` is the pair (batch `t / 8`,
  part `t % 8`), so entry `(0, c, p)` of the block is the argument at `(t / 8, t % 8, c, p)`.
-/
import proofs.«124604_j3204045603272_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.ChamferBlocks

open Cert.KernelIdeal Cert.KernelIdeal.Gen

variable {F : FTy → Type} [FloatOps F]
variable (m : (ℓ : Loc nD τ sig) → Buf (Elt F) ℓ)

/-- The pair a grid step works on. -/
abbrev batchOf (n : ℕ) : Fin 16 := ⟨n / 8 % 16, Nat.mod_lt _ (by decide)⟩
abbrev partOf (n : ℕ) : Fin 8 := ⟨n % 8, Nat.mod_lt _ (by decide)⟩

/-- The first window's array, as the region finds it, is the first argument with its two leading axes merged. -/
theorem V_v0 (c : Dev nD) : (V m c main_v0 : S128x3x1024.Idx → Elt F .f32)
    = shapeCast S128x3x1024 (m ((c : Thread nD τ).loc main_arg0)) shapeCasts_S16x8x3x1024_S128x3x1024 := by
  show StableHlo.after hostOps0 (fun b => m (c, b)) (Proc.devRef .tc main_v0) = _
  after_results
  rfl

/-- The second window's array likewise, of the second argument. -/
theorem V_v1 (c : Dev nD) : (V m c main_v1 : S128x3x1024.Idx → Elt F .f32)
    = shapeCast S128x3x1024 (m ((c : Thread nD τ).loc main_arg1)) shapeCasts_S16x8x3x1024_S128x3x1024 := by
  show StableHlo.after hostOps0 (fun b => m (c, b)) (Proc.devRef .tc main_v1) = _
  after_results
  rfl

/-- Merging the two leading axes: row `n` of the merged array is `(n / 8, n % 8)` of the argument. -/
theorem merged_apply (x : S16x8x3x1024.Idx → Elt F .f32) (h : S16x8x3x1024.ShapeCasts S128x3x1024)
    (n : Fin 128) (cc : Fin 3) (p : Fin 1024) :
    shapeCast S128x3x1024 x h (ix3 n cc p) = x (ix4 (batchOf n.val) (partOf n.val) cc p) :=
  shapeCast_apply x h _ _ (by
    rw [Shape.rowMajor_val_four, Shape.rowMajor_val_three]
    show (((n.val / 8 % 16) * 8 + n.val % 8) * 3 + cc.val) * 1024 + p.val = (n.val * 3 + cc.val) * 1024 + p.val
    have := n.isLt
    omega)

/-- The printed index maps, decided over the grid: step `t` takes row `t`, whole. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Entry `(0, c, p)` of the first input block at step `t`. -/
theorem iblk0_apply (c : Dev nD) (t : Fin cfg0.N) (cc : Fin 3) (p : Fin 1024) :
    (iblk m c 0 t : Vec F S1x3x1024 .f32) (ix3 (0 : Fin 1) cc p)
      = m ((c : Thread nD τ).loc main_arg0) (ix4 (batchOf t.val) (partOf t.val) cc p) := by
  have hN : t.val < 128 := lt_of_lt_of_eq t.isLt (show cfg0.N = 128 from N_0)
  obtain ⟨e0, e1, e2, -, -, -⟩ := idx_facts t
  unfold iblk
  rw [View.read_apply]
  show V m c main_v0 (((cfg0.win 0).blk t).view.emb (ix3 (0 : Fin 1) cc p)) = _
  rw [V_v0]
  have hi : ((cfg0.win 0).blk t).view.emb (ix3 (0 : Fin 1) cc p) = ix3 (⟨t.val, hN⟩ : Fin 128) cc p := by
    funext a; apply Fin.ext
    match a with
    | ⟨0, _⟩ => show win0_0.index t (0 : Fin 3) * 1 + 1 * 0 = t.val; omega
    | ⟨1, _⟩ => show win0_0.index t (1 : Fin 3) * 3 + 1 * cc.val = cc.val; omega
    | ⟨2, _⟩ => show win0_0.index t (2 : Fin 3) * 1024 + 1 * p.val = p.val; omega
  rw [hi]
  exact merged_apply _ _ ⟨t.val, hN⟩ cc p

/-- Entry `(0, c, p)` of the second input block at step `t`. -/
theorem iblk1_apply (c : Dev nD) (t : Fin cfg0.N) (cc : Fin 3) (p : Fin 1024) :
    (iblk m c 1 t : Vec F S1x3x1024 .f32) (ix3 (0 : Fin 1) cc p)
      = m ((c : Thread nD τ).loc main_arg1) (ix4 (batchOf t.val) (partOf t.val) cc p) := by
  have hN : t.val < 128 := lt_of_lt_of_eq t.isLt (show cfg0.N = 128 from N_0)
  obtain ⟨-, -, -, e0, e1, e2⟩ := idx_facts t
  unfold iblk
  rw [View.read_apply]
  show V m c main_v1 (((cfg0.win 1).blk t).view.emb (ix3 (0 : Fin 1) cc p)) = _
  rw [V_v1]
  have hi : ((cfg0.win 1).blk t).view.emb (ix3 (0 : Fin 1) cc p) = ix3 (⟨t.val, hN⟩ : Fin 128) cc p := by
    funext a; apply Fin.ext
    match a with
    | ⟨0, _⟩ => show win0_1.index t (0 : Fin 3) * 1 + 1 * 0 = t.val; omega
    | ⟨1, _⟩ => show win0_1.index t (1 : Fin 3) * 3 + 1 * cc.val = cc.val; omega
    | ⟨2, _⟩ => show win0_1.index t (2 : Fin 3) * 1024 + 1 * p.val = p.val; omega
  rw [hi]
  exact merged_apply _ _ ⟨t.val, hN⟩ cc p

end Cert.KernelIdeal.ChamferBlocks

end
-- ==== Proof.KernelValue.lean ====
/-
  The kernel's result at the ideal values: the scalar it returns is the sum, over the 128 (batch, part) pairs, of the
  pair's contribution — the accumulator after the last step is `((0 + g 0) + g 1) + … + g 127` with `g n` the
  contribution of pair `(n / 8, n % 8)`, a sum of extended reals in which order and grouping do not matter.
-/
import proofs.«124604_j3204045603272_2_alg».proof.Proof.KernelChain
import proofs.«124604_j3204045603272_2_alg».proof.Proof.KernelPayload
import proofs.«124604_j3204045603272_2_alg».proof.Proof.KernelBlocks
import proofs.«124604_j3204045603272_2_alg».proof.Proof.ChamferSpec

noncomputable section

open Idealize.ShloMosaic Idealize.ShloMosaic.TcCoe Idealize.SL.Sem Idealize.ShloMosaic.ValueIdx

namespace Cert.KernelIdeal.ChamferValue

open Cert.KernelIdeal Cert.KernelIdeal.Gen Cert.KernelIdeal.ChamferChain Cert.KernelIdeal.ChamferPayload
  Cert.KernelIdeal.ChamferBlocks Cert.Chamfer

variable (m : (ℓ : Loc nD τ sig) → Buf (Elt Ideal) ℓ) (ρ : Dev nD → PrngReg)

/-- Step `n`'s two clouds, from the arguments. -/
abbrev src (c : Dev nD) (n : ℕ) : Fin 3 → Fin 1024 → EReal :=
  fun cc p => m ((c : Thread nD τ).loc main_arg0) (ix4 (batchOf n) (partOf n) cc p)
abbrev dst (c : Dev nD) (n : ℕ) : Fin 3 → Fin 1024 → EReal :=
  fun cc p => m ((c : Thread nD τ).loc main_arg1) (ix4 (batchOf n) (partOf n) cc p)

/-- Step `n`'s contribution. -/
def term (c : Dev nD) (n : ℕ) : EReal := contrib (src m c n) (dst m c n)

/-- The accumulator update adds. -/
theorem pay1_apply (v38 v39 : FVec Ideal S1x1 .f32) (j : S1x1.Idx) : k0_pay1 (F := Ideal) v38 v39 j = v39 j + v38 j := by
  unfold k0_pay1
  show shapeCast S1x1 (addf v39 v38) _ j = _
  rw [shapeCast_self]
  rfl

/-- The value the first step starts from is zero. -/
theorem pay2_apply (j : S1x1.Idx) : k0_pay2 (F := Ideal) j = 0 := by
  unfold k0_pay2
  show shapeCast S1x1 (broadcast S1x1 (Scalar.ofBits .f32 0x00000000#32)) _ j = _
  rw [shapeCast_self]
  exact Ideal.ofBits_zero_f32

theorem cloud0 (c : Dev nD) (t : Fin cfg0.N) : cloud (iblk m c 0 t) = src m c t.val :=
  funext fun cc => funext fun p => iblk0_apply m c t cc p
theorem cloud1 (c : Dev nD) (t : Fin cfg0.N) : cloud (iblk m c 1 t) = dst m c t.val :=
  funext fun cc => funext fun p => iblk1_apply m c t cc p

/-- The accumulator after step `n` is the running sum of the contributions. -/
theorem acc_apply (c : Dev nD) (j : S1x1.Idx) : ∀ (n : ℕ) (h : n < cfg0.N), (acc m c n h j : EReal) = chain (term m c) n
  | 0, h => by
    rw [chain_zero]
    show k0_pay1 (k0_pay3 (iblk m c 0 ⟨0, h⟩) (iblk m c 1 ⟨0, h⟩)) (k0_pay2 (F := Ideal)) j = 0 + term m c 0
    rw [pay1_apply, pay2_apply, pay3_apply (iblk m c 0 ⟨0, h⟩) (iblk m c 1 ⟨0, h⟩) j, cloud0, cloud1]
    rfl
  | n + 1, h => by
    rw [chain_succ]
    show k0_pay1 (k0_pay3 (iblk m c 0 ⟨n + 1, h⟩) (iblk m c 1 ⟨n + 1, h⟩)) (acc m c n _) j = chain (term m c) n + term m c (n + 1)
    rw [pay1_apply, pay3_apply (iblk m c 0 ⟨n + 1, h⟩) (iblk m c 1 ⟨n + 1, h⟩) j, cloud0, cloud1, acc_apply c j n]
    rfl

/-- The result array's one element is the loss. -/
theorem result_apply (c : Dev nD) (j : S1x1.Idx) :
    (result m c j : EReal) = total (m ((c : Thread nD τ).loc main_arg0)) (m ((c : Thread nD τ).loc main_arg1)) := by
  have h1 : (result m c j : EReal) = chain (term m c) 127 := acc_apply m c j 127 lt127
  have h2 : chain (term m c) 127 = ∑ i ∈ Finset.range 128, term m c i := chain_eq_sum (term m c) 127
  rw [h1, h2, sum_range_128]
  unfold total
  show @Eq EReal _ _
  refine Finset.sum_congr rfl fun b _ => Finset.sum_congr rfl fun k _ => ?_
  have hb : batchOf (8 * b.val + k.val) = b := Fin.ext (by
    show (8 * b.val + k.val) / 8 % 16 = b.val
    have := b.isLt; have := k.isLt; omega)
  have hk : partOf (8 * b.val + k.val) = k := Fin.ext (by
    show (8 * b.val + k.val) % 8 = k.val
    have := k.isLt; omega)
  have hs : src m c (8 * b.val + k.val) = pairCloud (m ((c : Thread nD τ).loc main_arg0)) b k := by
    funext cc p
    show m ((c : Thread nD τ).loc main_arg0) (ix4 (batchOf (8 * b.val + k.val)) (partOf (8 * b.val + k.val)) cc p)
      = m ((c : Thread nD τ).loc main_arg0) (ix4 b k cc p)
    rw [hb, hk]
  have hd : dst m c (8 * b.val + k.val) = pairCloud (m ((c : Thread nD τ).loc main_arg1)) b k := by
    funext cc p
    show m ((c : Thread nD τ).loc main_arg1) (ix4 (batchOf (8 * b.val + k.val)) (partOf (8 * b.val + k.val)) cc p)
      = m ((c : Thread nD τ).loc main_arg1) (ix4 b k cc p)
    rw [hb, hk]
  unfold term
  rw [hs, hd]

/-- The kernel's run, read: the scalar result is the loss of the arguments, which end unchanged. -/
theorem run : θ_run defs (onTc (τ := τ) (main (F := Ideal))) ⟨m, fun _ => 0, ρ⟩ fun r => ∀ c : Dev nD,
      r.2.mem ((c : Thread nD τ).loc main_v3)
        = (fun _ => total (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(((h c).2 main_v3 (Pipeline.mem_restRefs_of main_v3 (by decide) (by decide))).trans (tail_v3 m c)).trans
        (funext fun i => by unfold shapeCast; exact result_apply m c _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.ChamferValue

end
-- ==== Proof.RefValue.lean ====
/-
  The reference's result, read at the ideal values: the mean over the 8 parts of (mean over batches and source points of
  the nearest-destination distance + mean over batches and destination points of the nearest-source distance) is the
  sum, over all 128 (batch, part) pairs, of the pair's weighted contribution `Chamfer.contrib`.

  Read one operation at a time: the distance tensor's entry `(b, k, p, q)` is `Chamfer.dist` of pair `(b, k)`'s two
  clouds; the two minimum reductions are folds of `min` over the last or the last-but-one axis; the sums over the axes
  (batch, point) are double sums; the final sum runs over the 8 parts; the three divisions are by `16384`, `16384`, `8`.
-/
import proofs.«124604_j3204045603272_2_alg».proof.Proof.Gen.ReferenceIdeal.Read
import proofs.«124604_j3204045603272_2_alg».proof.Proof.ChamferSpec

noncomputable section

open Idealize.ShloMosaic Idealize.ShloMosaic.ValueIdx

namespace Cert.ReferenceIdeal.ChamferRef

open Cert.ReferenceIdeal Cert.ReferenceIdeal.Gen Cert.ReferenceIdeal.Read Cert.Chamfer

/-- Pair `(b, k)`'s cloud in a `[16, 8, 3, 1024]` argument: coordinate `c` of point `p`. -/
abbrev slice (x : S16x8x3x1024.Idx → EReal) (b : Fin 16) (k : Fin 8) : Fin 3 → Fin 1024 → EReal :=
  fun c p => x (ix4 b k c p)

variable (x0 x1 : (⟨S16x8x3x1024, .f32⟩ : BufTy).Contents (Elt Ideal))

/-- The distance tensor at `(b, k, p, q)`. -/
theorem dist_apply (b : Fin 16) (k : Fin 8) (p q : Fin 1024) :
    val_main_v15 (F := Ideal) x0 x1 (ix4 b k p q) = Chamfer.dist (slice x0 b k) (slice x1 b k) p q := by
  have i1 : ∀ c : Fin 3, idx_main_v1 (idx_main_v5 (idx_main_v7 (ix4 b k p q))) c = ix4 b k c p := fun c =>
    funext fun a => Fin.ext (by match a with | ⟨0, _⟩ => rfl | ⟨1, _⟩ => rfl | ⟨2, _⟩ => rfl | ⟨3, _⟩ => rfl)
  have i3 : ∀ c : Fin 3, idx_main_v3 (idx_main_v6 (idx_main_v8 (ix4 b k p q))) c = ix4 b k c q := fun c =>
    funext fun a => Fin.ext (by match a with | ⟨0, _⟩ => rfl | ⟨1, _⟩ => rfl | ⟨2, _⟩ => rfl | ⟨3, _⟩ => rfl)
  have il : ∀ c : Fin 3, lidx_main_v4 (ix4 b k p q) c = ix4 b k c p := fun c =>
    funext fun a => Fin.ext (by match a with | ⟨0, _⟩ => rfl | ⟨1, _⟩ => rfl | ⟨2, _⟩ => rfl | ⟨3, _⟩ => rfl)
  have ir : ∀ c : Fin 3, ridx_main_v4 (ix4 b k p q) c = ix4 b k c q := fun c =>
    funext fun a => Fin.ext (by match a with | ⟨0, _⟩ => rfl | ⟨1, _⟩ => rfl | ⟨2, _⟩ => rfl | ⟨3, _⟩ => rfl)
  rw [val_main_v15_apply, val_main_v14_apply, val_main_v12_apply, val_main_v9_apply, val_main_v7_apply, val_main_v5_apply,
    val_main_v1_apply, val_main_v8_apply, val_main_v6_apply, val_main_v3_apply, val_main_v11_apply, val_main_v10_apply,
    val_main_v4_apply, val_main_v13_apply]
  simp only [i1, i3, il, ir, val_main_v0_apply, val_main_v2_apply, val_main_cst_apply, val_main_cst_0_apply,
    val_main_cst_1_apply, val_main_cst_2_apply, Ideal.mulf_def, Ideal.addf_def, Ideal.subf_def, Ideal.maximumf_def,
    Ideal.hostUnary_sqrt_def, Ideal.ofBits_def, Ideal.ofBits_zero_f32, zero_add]
  rfl

/-- The minimum over the destination points. -/
theorem rowMin_apply (b : Fin 16) (k : Fin 8) (p : Fin 1024) :
    val_main_v16 (F := Ideal) x0 x1 (ix3 b k p) = rowMin (slice x0 b k) (slice x1 b k) p := by
  unfold val_main_v16
  refine (Host.reduce_eq_fold_single (u := S_) (FloatOps.minimumf (F := Ideal) (φ := .f32)) (val_main_v15 (F := Ideal) x0 x1)
    (val_main_cst_3 (F := Ideal)) reducesTo_S16x8x1024x1024_S16x8x1024_d3
    (by decide : S16x8x1024x1024.Reduces [3] S16x8x1024) h_S_ (ix3 b k p)).trans ?_
  unfold rowMin
  refine Finset.fold_congr fun q _ => ?_
  refine Eq.trans (congrArg (val_main_v15 (F := Ideal) x0 x1) ?_) (dist_apply x0 x1 b k p q)
  exact funext fun a => Fin.ext (by match a with | ⟨0, _⟩ => rfl | ⟨1, _⟩ => rfl | ⟨2, _⟩ => rfl | ⟨3, _⟩ => rfl)

/-- The minimum over the source points. -/
theorem colMin_apply (b : Fin 16) (k : Fin 8) (q : Fin 1024) :
    val_main_v20 (F := Ideal) x0 x1 (ix3 b k q) = colMin (slice x0 b k) (slice x1 b k) q := by
  unfold val_main_v20
  refine (Host.reduce_eq_fold_single (u := S_) (FloatOps.minimumf (F := Ideal) (φ := .f32)) (val_main_v15 (F := Ideal) x0 x1)
    (val_main_cst_6 (F := Ideal)) reducesTo_S16x8x1024x1024_S16x8x1024_d2
    (by decide : S16x8x1024x1024.Reduces [2] S16x8x1024) h_S_ (ix3 b k q)).trans ?_
  unfold colMin
  refine Finset.fold_congr fun p _ => ?_
  refine Eq.trans (congrArg (val_main_v15 (F := Ideal) x0 x1) ?_) (dist_apply x0 x1 b k p q)
  exact funext fun a => Fin.ext (by match a with | ⟨0, _⟩ => rfl | ⟨1, _⟩ => rfl | ⟨2, _⟩ => rfl | ⟨3, _⟩ => rfl)

/-- The entries of a `[16, 8, 1024]` tensor whose part is `k`, summed, are a double sum over batches and points. -/
theorem sum_drop02 (f : S16x8x1024.Idx → EReal) (k : Fin 8) :
    ∑ i ∈ Finset.univ.filter (fun i : S16x8x1024.Idx => reducesTo_S16x8x1024_S8_d0_2.drop i = ix1 k), f i
      = ∑ b : Fin 16, ∑ p : Fin 1024, f (ix3 b k p) := by
  rw [← Fintype.sum_prod_type']
  have hinv : ∀ i : S16x8x1024.Idx, reducesTo_S16x8x1024_S8_d0_2.drop i = ix1 k → ix3 (i 0) k (i 2) = i := fun i hi => by
    have hk : (i 1).val = k.val := congrArg Fin.val (congrFun hi 0)
    funext d; apply Fin.ext
    match d with
    | ⟨0, _⟩ => rfl
    | ⟨1, _⟩ => exact hk.symm
    | ⟨2, _⟩ => rfl
  refine Finset.sum_nbij' (fun i => ((i 0 : Fin 16), (i 2 : Fin 1024))) (fun x => ix3 x.1 k x.2) ?_ ?_ ?_ ?_ ?_
  · intro i _; exact Finset.mem_univ _
  · intro x _
    exact Finset.mem_filter.2 ⟨Finset.mem_univ _, funext fun d => Fin.ext (by match d with | ⟨0, _⟩ => rfl)⟩
  · intro i hi; exact hinv i (Finset.mem_filter.1 hi).2
  · intro x _; rfl
  · intro i hi; exact congrArg f (hinv i (Finset.mem_filter.1 hi).2).symm

/-- A sum over the indices of an `[8]` tensor is a sum over `Fin 8`. -/
theorem sum_S8 (g : S8.Idx → EReal) : ∑ j : S8.Idx, g j = ∑ k : Fin 8, g (ix1 k) :=
  Fintype.sum_equiv ⟨fun j => (j 0 : Fin 8), fun k => ix1 k, fun j => (eq_ix1 j).symm, fun _ => rfl⟩ _ _
    fun j => congrArg g (eq_ix1 j)

/-- Part `k`'s forward and backward means, added. -/
theorem part_apply (k : Fin 8) :
    val_main_v24 (F := Ideal) x0 x1 (ix1 k)
      = Ideal.div (0 + ∑ b : Fin 16, ∑ p : Fin 1024, rowMin (slice x0 b k) (slice x1 b k) p) (Ideal.ofBits .f32 0x46800000#32)
        + Ideal.div (0 + ∑ b : Fin 16, ∑ q : Fin 1024, colMin (slice x0 b k) (slice x1 b k) q) (Ideal.ofBits .f32 0x46800000#32) := by
  have h17 : val_main_v17 (F := Ideal) x0 x1 (ix1 k) = 0 + ∑ b : Fin 16, ∑ p : Fin 1024, rowMin (slice x0 b k) (slice x1 b k) p := by
    unfold val_main_v17
    simp only [Host.reduceAdd, Ideal.hostReduceAdd_def]
    unfold Ideal.hostReduceAdd
    rw [sum_drop02, val_main_cst_4_apply, Ideal.ofBits_def, Ideal.ofBits_zero_f32]
    simp only [rowMin_apply]
  have h21 : val_main_v21 (F := Ideal) x0 x1 (ix1 k) = 0 + ∑ b : Fin 16, ∑ q : Fin 1024, colMin (slice x0 b k) (slice x1 b k) q := by
    unfold val_main_v21
    simp only [Host.reduceAdd, Ideal.hostReduceAdd_def]
    unfold Ideal.hostReduceAdd
    rw [sum_drop02, val_main_cst_7_apply, Ideal.ofBits_def, Ideal.ofBits_zero_f32]
    simp only [colMin_apply]
  rw [val_main_v24_apply, val_main_v19_apply, val_main_v23_apply, val_main_v18_apply, val_main_v22_apply, val_main_cst_5_apply,
    val_main_cst_8_apply, h17, h21]
  simp only [Ideal.addf_def, Ideal.hostDivf_def, Ideal.ofBits_def]

/-- The reference's result is the sum of the 128 pairs' contributions. -/
theorem ref_value (i : S_.Idx) :
    val_main_v26 (F := Ideal) x0 x1 i = total x0 x1 := by
  show _ = ∑ b : Fin 16, ∑ k : Fin 8, contrib (slice x0 b k) (slice x1 b k)
  rw [val_main_v26_apply, val_main_v25_apply, val_main_cst_10_apply, val_main_cst_9_apply, sum_S8]
  simp only [part_apply, Ideal.hostDivf_def, Ideal.ofBits_def, Ideal.ofBits_zero_f32]
  exact mean_eq (fun b k => ∑ p : Fin 1024, rowMin (slice x0 b k) (slice x1 b k) p)
    (fun b k => ∑ q : Fin 1024, colMin (slice x0 b k) (slice x1 b k) q)

end Cert.ReferenceIdeal.ChamferRef

end
-- ==== Proof.lean ====
/-
  The claims about the Chamfer-loss kernel and its reference.

  Both programs compute, from two arrays `src, dst : [16, 8, 3, 1024]` of 128 pairs of 3-D point clouds, the scalar

      total = ∑ over the 128 pairs of ((∑_p min_q dist(p, q)) · 2⁻¹⁷ + (∑_q min_p dist(p, q)) · 2⁻¹⁷),
      dist(p, q) = sqrt (max ((|src_p|² + |dst_q|²) - 2 · ⟨src_p, dst_q⟩) 0).

  The kernel walks the pairs one grid step at a time and adds each pair's term to a one-element accumulator that starts
  at zero; the reference forms the 16 × 8 × 1024 × 1024 distance tensor at once, takes the minima, averages over batches
  and points per part (a division by 16384), adds the two directions, and averages over the 8 parts (a division by 8).
  Over the extended reals the two are equal: a product with a finite non-negative constant distributes over any finite
  sum, division by a non-zero real is multiplication by its reciprocal, `(1/16384) · (1/8) = 2⁻¹⁷`, and finite sums of
  extended reals may be regrouped and reordered freely. Nothing here needs the inputs to be finite.

  * the three frames: the kernel's two from its generated frame proof, the reference's from its generated run;
  * `preserves`: the idealization rewrote nothing;
  * `algebraic`: the kernel's run ends with the scalar at `Chamfer.total` of its arguments (Proof/KernelValue.lean),
    the reference's at `Chamfer.total` of its own (Proof/RefValue.lean), and the arguments agree.
-/
import proofs.«124604_j3204045603272_2_alg».proof.Defs
import proofs.«124604_j3204045603272_2_alg».proof.Proof.Gen.Kernel
import proofs.«124604_j3204045603272_2_alg».proof.Proof.Gen.Kernel.Skeleton
import proofs.«124604_j3204045603272_2_alg».proof.Proof.Gen.Kernel.Launch
import proofs.«124604_j3204045603272_2_alg».proof.Proof.Gen.Kernel.Points
import proofs.«124604_j3204045603272_2_alg».proof.Proof.Gen.Kernel.Frame
import proofs.«124604_j3204045603272_2_alg».proof.Proof.Gen.KernelIdeal
import proofs.«124604_j3204045603272_2_alg».proof.Proof.Gen.KernelIdeal.Skeleton
import proofs.«124604_j3204045603272_2_alg».proof.Proof.Gen.KernelIdeal.Launch
import proofs.«124604_j3204045603272_2_alg».proof.Proof.Gen.KernelIdeal.Points
import proofs.«124604_j3204045603272_2_alg».proof.Proof.Gen.KernelIdeal.Frame
import proofs.«124604_j3204045603272_2_alg».proof.Proof.Gen.ReferenceIdeal
import proofs.«124604_j3204045603272_2_alg».proof.Proof.Gen.ReferenceIdeal.Run
import proofs.«124604_j3204045603272_2_alg».proof.Proof.Gen.ReferenceIdeal.Read
import proofs.«124604_j3204045603272_2_alg».proof.Proof.Gen.Pre_finite_inputs
import proofs.«124604_j3204045603272_2_alg».proof.Proof.KernelValue
import proofs.«124604_j3204045603272_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the scalar at the loss of the (agreeing) arguments. -/
theorem algebraic : Cert.algebraic_KernelIdeal_ReferenceIdeal := by
  intro m ρ m' ρ' _ hagree
  refine ⟨fun c _ => Cert.Chamfer.total
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.KernelIdeal.ChamferValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq]
  funext i
  rw [Cert.ReferenceIdeal.ChamferRef.ref_value, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
